-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩
abbrev S128x64 : Shape := ⟨2, ![128, 64]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 64
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S128x64, .f32⟩
  | .hbm, ⟨61, _⟩ => ⟨S128x64, .f32⟩
  | .hbm, ⟨62, _⟩ => ⟨S1x64, .f32⟩
  | .hbm, ⟨63, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S2000x64, .f32⟩
  | .local _ .vmem, ⟨17, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000, .f32⟩
  | .hbm, ⟨48, _⟩ => ⟨S100000x1, .f32⟩
  | .hbm, ⟨49, _⟩ => ⟨S100000x1, .f32⟩
  | .hbm, ⟨50, _⟩ => ⟨S_, .f32⟩
  | .hbm, ⟨51, _⟩ => ⟨S100000x1, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S_, .f32⟩
  | .hbm, ⟨72, _⟩ => ⟨S1600000, .f32⟩
  | .hbm, ⟨73, _⟩ => ⟨S_, .f32⟩
  | .hbm, ⟨74, _⟩ => ⟨S100000, .f32⟩
  | .hbm, ⟨75, _⟩ => ⟨S1600000x1, .i32⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S128x64, .f32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S128x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S100000, .f32⟩
  | .hbm, ⟨94, _⟩ => ⟨S100000x1, .f32⟩
  | .hbm, ⟨95, _⟩ => ⟨S100000x1, .f32⟩
  | .hbm, ⟨96, _⟩ => ⟨S_, .f32⟩
  | .hbm, ⟨97, _⟩ => ⟨S100000x1, .f32⟩
  | .hbm, ⟨98, _⟩ => ⟨S100000x1, .f32⟩
  | .hbm, ⟨99, _⟩ => ⟨S100000x64, .f32⟩
  | .hbm, ⟨100, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_v0 : Ref sig .tc := ⟨.hbm, 45, rfl⟩
abbrev main_call0_cst : Ref sig .tc := ⟨.hbm, 46, rfl⟩
abbrev main_call0_v1 : Ref sig .tc := ⟨.hbm, 47, rfl⟩
abbrev main_call0_v2 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_cst : Ref sig .tc := ⟨.hbm, 55, rfl⟩
abbrev main_call1_v0 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call2_v0 : Ref sig .tc := ⟨.hbm, 91, rfl⟩
abbrev main_call2_cst : Ref sig .tc := ⟨.hbm, 92, rfl⟩
abbrev main_call2_v1 : Ref sig .tc := ⟨.hbm, 93, rfl⟩
abbrev main_call2_v2 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S100000x1_S100000x64_0_1 : S100000x1.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result named.

  The program is two kernel regions among three stretches of host operations. Every weakly fair execution ends, and
  in the final memory the result buffer holds what the last boundary's contents give it — the second region's output
  array after all its blocks are written back — while the eight argument arrays are as launched. The contents at each
  boundary are the generated fold through the program; this module only reads the result's component of the last one
  beside the arguments'.
-/
import proofs.«154580_j28802050687442_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    and the arguments end as launched. -/
theorem run : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.LibPlainDot.lean ====
/-
  A plain matrix product's contraction sum, re-indexed by the contracted coordinate.

  For a dot of an [n, K] operand with a [K, M] operand into [n, M] that contracts the left operand's axis 1 with the
  right operand's axis 0 and has no batch axes, the sum over the contraction index of left(row i, k) * right(k, column i)
  is the sum over k : Fin K of L (i 0, k) * R (k, i 1): what both a kernel's matrix unit and a host dot_general
  compute at an output index over the extended reals.
-/
import Idealize.ShloMosaic.PureOps.Ideal.Laws
import Idealize.ShloMosaic.Lib.ValueIdx

namespace Cert.LibPlainDot

open Idealize.ShloMosaic Idealize.ShloMosaic.ValueIdx

variable {n K M : Nat}

/-- The dimension numbers of a plain product: contract axis 1 with axis 0, keep axis 0 and axis 1, no batch axes. -/
structure IsPlain (d : DotDims ⟨2, ![n, K]⟩ ⟨2, ![K, M]⟩ ⟨2, ![n, M]⟩) : Prop where
  lc : d.lhsContracting = [1]
  rc : d.rhsContracting = [0]
  ln : d.lhsNonContracting = [0]
  rn : d.rhsNonContracting = [1]
  lb : d.lhsBatch = []
  rb : d.rhsBatch = []

/-- The contraction sum of a plain product at output index `i` is the sum over the contracted coordinate. -/
theorem sum_contr {α : Type} [AddCommMonoid α] (d : DotDims ⟨2, ![n, K]⟩ ⟨2, ![K, M]⟩ ⟨2, ![n, M]⟩) (hd : IsPlain d)
    (f : (⟨2, ![n, K]⟩ : Shape).Idx → (⟨2, ![K, M]⟩ : Shape).Idx → α) (i : (⟨2, ![n, M]⟩ : Shape).Idx) :
    ∑ q : d.contr.Idx, f (d.lhsIdx i q) (d.rhsIdx i q) = ∑ k : Fin K, f (ix2 (i 0) k) (ix2 k (i 1)) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![K, M]⟩ ⟨2, ![n, M]⟩ := ⟨[1], [0], [0], [1], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 k (i 1) := funext fun a => Fin.ext (by
    match a with
    | ⟨0, _⟩ => exact (d.rhsIdx_val_of_single rfl i _).trans hk
    | ⟨1, _⟩ =>
      show (d.rhsIdx i _ 1).val = (i 1).val
      unfold DotDims.rhsIdx
      rw [dif_neg (show ¬(1 : Fin (⟨2, ![K, M]⟩ : Shape).rank) ∈ d.rhsBatch from List.not_mem_nil),
        dif_pos (show (1 : Fin (⟨2, ![K, M]⟩ : Shape).rank) ∈ d.rhsNonContracting from List.mem_singleton.mpr rfl)]
      rfl)
  rw [el, er]
  try rfl

end Cert.LibPlainDot
-- ==== Proof.LibDotApply.lean ====
/-
  A plain matrix product read at an entry, over the extended reals.

  For an [n, K] operand and a [K, M] operand contracted over K with no batch axes, the kernel's matrix-unit product
  into a zero accumulator and the host's dot_general both read, at entry (p, c), the sum over k : Fin K of
  L (p, k) * R (k, c): there is no rounding and no order of accumulation left in either.
-/
import proofs.«154580_j28802050687442_1_alg».proof.Proof.LibPlainDot
import Idealize.ShloMosaic.PureOps.Ideal.Laws
import Idealize.ShloMosaic.Lib.ValueIdx

noncomputable section

namespace Cert.LibDotApply

open Idealize.ShloMosaic Idealize.ShloMosaic.ValueIdx Cert.LibPlainDot

variable {n K M : Nat} {φ₁ φ₂ : FTy}

/-- A kernel's matrix-unit product of plain dimension numbers into a zero accumulator, at entry (p, c). -/
theorem matmul_zero_apply (d : DotDims ⟨2, ![n, K]⟩ ⟨2, ![K, M]⟩ ⟨2, ![n, M]⟩) (hd : IsPlain d) (prec : Option ContractPrecision)
    (lhs : FVec Ideal ⟨2, ![n, K]⟩ φ₁) (rhs : FVec Ideal ⟨2, ![K, M]⟩ φ₂) (p : Fin n) (c : Fin M) :
    FloatOps.matmul d prec lhs rhs (constant ⟨2, ![n, M]⟩ .f32 0x00000000#32) (ix2 p c)
      = ∑ k : Fin K, lhs (ix2 p k) * rhs (ix2 k c) :=
  (Ideal.matmul_constant_zero_apply d prec lhs rhs (ix2 p c)).trans
    (sum_contr d hd (fun a b => lhs a * rhs b) (ix2 p c))

/-- The host's dot_general of plain dimension numbers, at entry (p, c). -/
theorem dotGeneral_apply (d : DotDims ⟨2, ![n, K]⟩ ⟨2, ![K, M]⟩ ⟨2, ![n, M]⟩) (hd : IsPlain d) (prec : Option ContractPrecision)
    (sched : HostSchedule) (lhs : FVec Ideal ⟨2, ![n, K]⟩ φ₁) (rhs : FVec Ideal ⟨2, ![K, M]⟩ φ₂) (p : Fin n) (c : Fin M) :
    FloatOps.dotGeneral d prec sched lhs rhs (ix2 p c) = ∑ k : Fin K, lhs (ix2 p k) * rhs (ix2 k c) :=
  (Ideal.dotGeneral_apply d prec sched lhs rhs (ix2 p c)).trans
    (sum_contr d hd (fun a b => lhs a * rhs b) (ix2 p c))

end Cert.LibDotApply

end
-- ==== Proof.LibKeepdims.lean ====
/-
  Row-wise reductions with kept dimensions, read at an entry.

  For an [a, b] matrix: a sum or a maximum along axis 1 at row p is the sum, or the fold of `max` from the initial
  value, over the b entries of row p — for a lane reduction inside a kernel body and for a host reduction alike; the
  reduced [a] vector cast to an [a, 1] column reads at (p, 0) the vector at p; and an [a, 1] column broadcast to [a, b]
  reads at (p, c) the column at (p, 0). Together these read `reduce(keepdims=True)` followed by a broadcast back.
-/
import Idealize.ShloMosaic.PureOps.Ideal.Laws
import Idealize.ShloMosaic.Lib.Pipeline.Value
import Idealize.ShloMosaic.Lib.ValueIdx

noncomputable section

namespace Cert.LibKeepdims

open Idealize.ShloMosaic Idealize.ShloMosaic.ValueIdx

variable {α : Type}

/-- An [a] vector cast to an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The reduced index p of a reduction along axis 1 with coordinate k put back is (p, k). -/
theorem lift_row {a b : ℕ} (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext c; apply Fin.ext
  match c with
  | ⟨0, _⟩ => rfl
  | ⟨1, _⟩ => rfl

/-- A lane sum along axis 1, at row p: the sum of the row. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A lane maximum along axis 1, at row p: the fold of `max` from the accumulator's value over the row. -/
theorem multiReduction_max_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => Finset.fold max (Ideal.ofBits φ acc) f (Finset.univ : Finset (Fin b)))
      (funext fun k => congrArg src (lift_row h p k)))

/-- The host's sum along axis 1, at row p: the initial value plus the sum of the row. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-- The host's maximum along axis 1, at row p: the fold of `max` from the initial value over the row. -/
theorem hostReduce_max_row {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => Finset.fold max (init (Shape.Idx.first hu)) f (Finset.univ : Finset (Fin b)))
      (funext fun k => congrArg x (lift_row h p k)))

end Cert.LibKeepdims

end
-- ==== Proof.LibSageRow.lean ====
/-
  One output row of a normalised two-operand linear layer, over the extended reals.

  A graph-convolution layer sends a node's aggregated neighbour features `a` and its own features `h` to
  `a · Wl + b + h · Wr`, then divides the row by its Euclidean length, the length clamped below by a small
  positive `eps`. Over the extended reals addition is commutative and associative with no side condition, so the
  three summands may be added in any order; and dividing by a nonzero `n` is multiplying by `1 / n`, at the
  infinities too, because the quotient is by definition the product with the inverse whenever the divisor is not zero.
-/
import Idealize.ShloMosaic.PureOps.Ideal
import Idealize.ShloMosaic.PureOps.Ideal.Laws
import Idealize.ShloMosaic.Lib.IdealHost

noncomputable section

namespace Cert.LibSageRow

open Idealize.ShloMosaic

variable {K M : Nat}

/-- Entry `c` of the row before normalisation: the aggregated features through the left weights, plus the bias,
    plus the node's own features through the right weights. -/
def affine (a h : Fin K → EReal) (wl wr : Fin K → Fin M → EReal) (b : Fin M → EReal) (c : Fin M) : EReal :=
  (∑ k, a k * wl k c + b c) + ∑ k, h k * wr k c

/-- Entry `c` of the row `z` divided by its Euclidean length, the length clamped below by `eps`. -/
def unit (z : Fin M → EReal) (eps : EReal) (c : Fin M) : EReal :=
  Ideal.div (z c) (max (Ideal.sqrt (∑ c', z c' * z c')) eps)

/-- Adding the bias last, after both products, gives the same entry. -/
theorem affine_bias_last (a h : Fin K → EReal) (wl wr : Fin K → Fin M → EReal) (b : Fin M → EReal) (c : Fin M) :
    (∑ k, a k * wl k c + ∑ k, h k * wr k c) + b c = affine a h wl wr b c := by
  unfold affine; exact add_right_comm _ _ _

/-- Multiplying by the reciprocal of a nonzero number is dividing by it, for every extended real `s`. -/
theorem mul_one_div {s n : EReal} (hn : n ≠ 0) : s * Ideal.div 1 n = Ideal.div s n := by
  unfold Ideal.div; rw [if_neg hn, if_neg hn, one_mul]

/-- A count clamped below by one is never zero. -/
theorem max_one_ne_zero (c : EReal) : max c 1 ≠ 0 :=
  ne_of_gt (lt_of_lt_of_le zero_lt_one (le_max_right c 1))

end Cert.LibSageRow

end
-- ==== Proof.LibNormRows.lean ====
/-
  Two readings at an entry, over the extended reals, of what a dense normalised layer's kernel body computes on a block.

  A block of rows, each divided by its own Euclidean length clamped below: spelt as square, sum along the lanes, cast the
  sums to a column, take the root, clamp below by a broadcast scalar, broadcast the column back over the lanes and
  divide. At (p, c) this is entry c of row p divided by the clamped length of row p — `LibSageRow.unit`.

  Two plain matrix products into zero accumulators, added, plus a one-row bias broadcast over the rows: at (p, c) the
  sum over k of the first left operand's row p against the first right operand's column c, the same for the second
  pair, and the bias at c — `LibSageRow.affine`, whose bias is added between the two products (the two orders agree
  because addition of extended reals is commutative and associative).
  Generic in the block's extents.
-/
import proofs.«154580_j28802050687442_1_alg».proof.Proof.LibDotApply
import proofs.«154580_j28802050687442_1_alg».proof.Proof.LibKeepdims
import proofs.«154580_j28802050687442_1_alg».proof.Proof.LibSageRow
import Idealize.ShloMosaic.Lib.ValueLayout
import Idealize.ShloMosaic.Lib.Pipeline.Value
import Idealize.ShloMosaic.Lib.ValueIdx

noncomputable section

namespace Cert.LibNormRows

open Idealize.ShloMosaic Idealize.ShloMosaic.ValueIdx
open Cert.LibSageRow Cert.LibKeepdims Cert.LibDotApply Cert.LibPlainDot

/-- A block whose rows are each divided by their own length, as a body spells it: square, sum along the lanes, cast
    the sums to a column, take the root, clamp below, broadcast the column back and divide. At (p, c) this is the
    normalised row p at c. -/
theorem unit_apply {a b : ℕ} (z : FVec Ideal ⟨2, ![a, b]⟩ .f32)
    (hr : (⟨2, ![a, b]⟩ : Shape).Reduces [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (e : Ideal .f32) (p : Fin a) (c : Fin b) :
    divf z (broadcastTo ⟨2, ![a, b]⟩ (maximumf (sqrt (shapeCast ⟨2, ![a, 1]⟩
        (multiReduction .add [1] ⟨1, ![a]⟩ (mulf z z) 0x00000000#32 hr hφ hacc) hc)) (broadcast ⟨2, ![a, 1]⟩ e)) hb) (ix2 p c)
      = unit (fun c' => z (ix2 p c')) e c := by
  show Ideal.div (z (ix2 p c)) (broadcastTo ⟨2, ![a, b]⟩ _ hb (ix2 p c)) = _
  rw [broadcastTo_a1_ab_apply]
  show Ideal.div (z (ix2 p c)) (max (Ideal.sqrt (shapeCast ⟨2, ![a, 1]⟩ _ hc (ix2 p (0 : Fin 1)))) e) = _
  rw [shapeCast_a_a1_apply, multiReduction_add_row]
  rfl

/-- Two plain products into zero accumulators, added, plus a bias row broadcast over the rows: at (p, c) the affine
    row of `LibSageRow`, whose bias is added before the second product. -/
theorem affine_apply {n K M : ℕ} {φ₁ φ₂ : FTy} (d : DotDims ⟨2, ![n, K]⟩ ⟨2, ![K, M]⟩ ⟨2, ![n, M]⟩) (hd : IsPlain d)
    (a h : FVec Ideal ⟨2, ![n, K]⟩ φ₁) (wl wr : FVec Ideal ⟨2, ![K, M]⟩ φ₂) (brow : FVec Ideal ⟨2, ![1, M]⟩ .f32)
    (hb : (⟨2, ![1, M]⟩ : Shape).Broadcasts ⟨2, ![n, M]⟩) (p : Fin n) (c : Fin M) :
    addf (addf (matmul d none a wl (constant ⟨2, ![n, M]⟩ .f32 0x00000000#32))
        (matmul d none h wr (constant ⟨2, ![n, M]⟩ .f32 0x00000000#32))) (broadcastTo ⟨2, ![n, M]⟩ brow hb) (ix2 p c)
      = affine (fun k => a (ix2 p k)) (fun k => h (ix2 p k)) (fun k c => wl (ix2 k c)) (fun k c => wr (ix2 k c))
          (fun c => brow (ix2 (0 : Fin 1) c)) c := by
  show (matmul d none a wl (constant ⟨2, ![n, M]⟩ .f32 0x00000000#32) (ix2 p c)
      + matmul d none h wr (constant ⟨2, ![n, M]⟩ .f32 0x00000000#32) (ix2 p c))
      + broadcastTo ⟨2, ![n, M]⟩ brow hb (ix2 p c) = _
  exact (congrArg₂ (· + ·) (congrArg₂ (· + ·) (matmul_zero_apply d hd none a wl p c) (matmul_zero_apply d hd none h wr p c))
    (broadcastTo_1b_ab_apply brow hb p c)).trans
    (affine_bias_last (fun k => a (ix2 p k)) (fun k => h (ix2 p k)) (fun k c => wl (ix2 k c)) (fun k c => wr (ix2 k c))
      (fun c => brow (ix2 (0 : Fin 1) c)) c)

end Cert.LibNormRows

end
-- ==== Proof.KernelRows.lean ====
/-
  The two kernel bodies at an entry of their output block, over the extended reals.

  Each body takes a block of 2000 rows of aggregated neighbour features and the same 2000 rows of node features,
  multiplies each by a whole weight matrix (the narrowing of the operands to a shorter float format changes nothing
  over the extended reals), adds the two products and a bias row, and divides every row by its Euclidean length
  clamped below; the first body also clamps the result below by zero. So entry (p, c) of the output block depends
  on row p of the two input blocks only, and is the normalised affine row of `LibSageRow` at c.
-/
import proofs.«154580_j28802050687442_1_alg».proof.Proof.Gen.KernelIdeal.Skeleton
import proofs.«154580_j28802050687442_1_alg».proof.Proof.LibNormRows
import Idealize.ShloMosaic.Lib.ValueLayout
import Idealize.ShloMosaic.Lib.Pipeline.Value
import Idealize.ShloMosaic.Lib.ValueIdx

noncomputable section

namespace Cert.KernelIdeal.Rows

open Cert.KernelIdeal Cert.KernelIdeal.Gen Idealize.ShloMosaic Idealize.ShloMosaic.ValueIdx
open Cert.LibSageRow Cert.LibNormRows Cert.LibPlainDot

theorem plain0 : IsPlain dot_S2000x128_S128x128_S2000x128_1_0_0_1_n_n := ⟨rfl, rfl, rfl, rfl, rfl, rfl⟩
theorem plain1 : IsPlain dot_S2000x128_S128x64_S2000x64_1_0_0_1_n_n := ⟨rfl, rfl, rfl, rfl, rfl, rfl⟩

/-- The first layer's body at entry (p, c) of its output block: the normalised affine row p at c, clamped below by
    zero. -/
theorem pay0_apply (x0 x1 : Vec Ideal S2000x128 .f32) (wl wr : Vec Ideal S128x128 .f32) (b : Vec Ideal S1x128 .f32)
    (p : Fin 2000) (c : Fin 128) :
    k0_pay1 (F := Ideal) x0 x1 wl wr b (ix2 p c)
      = max (unit (affine (fun k => x0 (ix2 p k)) (fun k => x1 (ix2 p k)) (fun k c => wl (ix2 k c))
          (fun k c => wr (ix2 k c)) (fun c => b (ix2 (0 : Fin 1) c))) (Ideal.ofBits .f32 0x2B8CBCCC#32) c)
          (Ideal.ofBits .f32 0x00000000#32) := by
  unfold k0_pay1
  simp only [shapeCast_self]
  refine congrArg (fun v => max v (Ideal.ofBits .f32 0x00000000#32)) ?_
  refine (unit_apply _ _ _ _ _ _ _ p c).trans ?_
  exact congrArg (fun z => unit z (Ideal.ofBits .f32 0x2B8CBCCC#32) c)
    (funext fun c' => affine_apply _ plain0 _ _ _ _ _ _ p c')

/-- The second layer's body at entry (p, c) of its output block: the normalised affine row p at c. -/
theorem pay1_apply (x0 x1 : Vec Ideal S2000x128 .f32) (wl wr : Vec Ideal S128x64 .f32) (b : Vec Ideal S1x64 .f32)
    (p : Fin 2000) (c : Fin 64) :
    k1_pay1 (F := Ideal) x0 x1 wl wr b (ix2 p c)
      = unit (affine (fun k => x0 (ix2 p k)) (fun k => x1 (ix2 p k)) (fun k c => wl (ix2 k c))
          (fun k c => wr (ix2 k c)) (fun c => b (ix2 (0 : Fin 1) c))) (Ideal.ofBits .f32 0x2B8CBCCC#32) c := by
  unfold k1_pay1
  simp only [shapeCast_self]
  refine (unit_apply _ _ _ _ _ _ _ p c).trans ?_
  exact congrArg (fun z => unit z (Ideal.ofBits .f32 0x2B8CBCCC#32) c)
    (funext fun c' => affine_apply _ plain1 _ _ _ _ _ _ p c')

end Cert.KernelIdeal.Rows

end
-- ==== Proof.Region0.lean ====
/-
  Region 0's output array after its run, as one function of the arrays the region finds.

  The grid has 50 points; point t reads rows 2000·t … 2000·t + 1999 of the aggregated features and of the node
  features, and the two weight matrices and the bias row whole, and writes back rows 2000·t … 2000·t + 1999 of the
  output. The body's entry (p, c) depends on row p of its two input blocks only, so what point t writes back is rows
  2000·t … of ONE whole-array function: row P of the output is the normalised affine row of row P of the two inputs,
  clamped below by zero. The 50 blocks tile the 100000 rows, so the array ends holding that function.
  Stated for any contents `V` the region is entered with.
-/
import proofs.«154580_j28802050687442_1_alg».proof.Proof.Gen.KernelIdeal.Frame
import proofs.«154580_j28802050687442_1_alg».proof.Proof.KernelRows

set_option maxRecDepth 16384

noncomputable section

namespace Cert.KernelIdeal.Region0

open Cert.KernelIdeal Cert.KernelIdeal.Gen Cert.KernelIdeal.Rows Cert.LibSageRow
open Idealize.ShloMosaic Idealize.ShloMosaic.TcCoe Idealize.ShloMosaic.ValueIdx Idealize.SL.Sem
open Idealize.ShloMosaic.Pipeline (Dat Cfg Window)

/-- Entry (P, c) of the layer's output: the normalised affine row of row P of the aggregated features `a` and of the
    node features `h`, clamped below by zero. -/
def entry (a h : S100000x128.Idx → EReal) (wl : S128x128.Idx → EReal) (b : S1x128.Idx → EReal) (wr : S128x128.Idx → EReal)
    (P : Fin 100000) (c : Fin 128) : EReal :=
  max (unit (affine (fun k : Fin 128 => a (ix2 P k)) (fun k : Fin 128 => h (ix2 P k)) (fun (k : Fin 128) (c : Fin 128) => wl (ix2 k c))
    (fun (k : Fin 128) (c : Fin 128) => wr (ix2 k c)) (fun c : Fin 128 => b (ix2 (0 : Fin 1) c))) (Ideal.ofBits .f32 0x2B8CBCCC#32) c)
    (Ideal.ofBits .f32 0x00000000#32)

/-- The layer's output array. -/
def layer (a h : S100000x128.Idx → EReal) (wl : S128x128.Idx → EReal) (b : S1x128.Idx → EReal) (wr : S128x128.Idx → EReal) :
    S100000x128.Idx → EReal :=
  fun i => entry a h wl b wr ⟨(i 0).val, idx2_lt0 i⟩ ⟨(i 1).val, idx2_lt1 i⟩

theorem layer_apply (a h : S100000x128.Idx → EReal) (wl : S128x128.Idx → EReal) (b : S1x128.Idx → EReal) (wr : S128x128.Idx → EReal)
    (P : Fin 100000) (c : Fin 128) : layer a h wl b wr (ix2 P c) = entry a h wl b wr P c := rfl

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row-blocked windows are at block row t, everything else at block 0. -/
theorem index_maps : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem row_lt (t : Fin cfg0.N) (p : Fin 2000) : t.val * 2000 + p.val < 100000 := by
  have ht : t.val < 50 := lt_of_lt_of_eq t.isLt N_0
  have hp := p.isLt
  omega

/-- Row p of point t's block of the aggregated features is row 2000·t + p of the array. -/
theorem blk_a (c : Dev nD) (t : Fin cfg0.N) (p : Fin 2000) (k : Fin 128) :
    iblk0 V c 0 t (ix2 p k) = V c main_v24 (ix2 (⟨t.val * 2000 + p.val, row_lt t p⟩ : Fin 100000) k) := by
  show V c main_v24 (((cfg0.win 0).blk t).view.emb (ix2 p k)) = _
  refine congrArg (V c main_v24) ?_
  obtain ⟨e0, e1, -⟩ := index_maps t
  funext ax; apply Fin.ext
  match ax with
  | ⟨0, _⟩ => show win0_0.index t (0 : Fin 2) * 2000 + 1 * p.val = t.val * 2000 + p.val; omega
  | ⟨1, _⟩ => show win0_0.index t (1 : Fin 2) * 128 + 1 * k.val = k.val; omega

/-- Row p of point t's block of the node features is row 2000·t + p of the array. -/
theorem blk_h (c : Dev nD) (t : Fin cfg0.N) (p : Fin 2000) (k : Fin 128) :
    iblk0 V c 1 t (ix2 p k) = V c main_arg0 (ix2 (⟨t.val * 2000 + p.val, row_lt t p⟩ : Fin 100000) k) := by
  show V c main_arg0 (((cfg0.win 1).blk t).view.emb (ix2 p k)) = _
  refine congrArg (V c main_arg0) ?_
  obtain ⟨-, -, e0, e1, -⟩ := index_maps t
  funext ax; apply Fin.ext
  match ax with
  | ⟨0, _⟩ => show win0_1.index t (0 : Fin 2) * 2000 + 1 * p.val = t.val * 2000 + p.val; omega
  | ⟨1, _⟩ => show win0_1.index t (1 : Fin 2) * 128 + 1 * k.val = k.val; omega

/-- The left weights' block at any point is the whole matrix. -/
theorem blk_wl (c : Dev nD) (t : Fin cfg0.N) (k : Fin 128) (q : Fin 128) :
    iblk0 V c 2 t (ix2 k q) = V c main_v25 (ix2 k q) := by
  show V c main_v25 (((cfg0.win 2).blk t).view.emb (ix2 k q)) = _
  refine congrArg (V c main_v25) ?_
  obtain ⟨-, -, -, -, e0, e1, -⟩ := index_maps t
  funext ax; apply Fin.ext
  match ax with
  | ⟨0, _⟩ => show win0_2.index t (0 : Fin 2) * 128 + 1 * k.val = k.val; omega
  | ⟨1, _⟩ => show win0_2.index t (1 : Fin 2) * 128 + 1 * q.val = q.val; omega

/-- The bias row's block at any point is the whole row. -/
theorem blk_b (c : Dev nD) (t : Fin cfg0.N) (q : Fin 128) :
    iblk0 V c 3 t (ix2 (0 : Fin 1) q) = V c main_v27 (ix2 (0 : Fin 1) q) := by
  show V c main_v27 (((cfg0.win 3).blk t).view.emb (ix2 (0 : Fin 1) q)) = _
  refine congrArg (V c main_v27) ?_
  obtain ⟨-, -, -, -, -, -, e0, e1, -⟩ := index_maps t
  funext ax; apply Fin.ext
  match ax with
  | ⟨0, _⟩ => show win0_3.index t (0 : Fin 2) * 1 + 1 * 0 = 0; omega
  | ⟨1, _⟩ => show win0_3.index t (1 : Fin 2) * 128 + 1 * q.val = q.val; omega

/-- The right weights' block at any point is the whole matrix. -/
theorem blk_wr (c : Dev nD) (t : Fin cfg0.N) (k : Fin 128) (q : Fin 128) :
    iblk0 V c 4 t (ix2 k q) = V c main_v26 (ix2 k q) := by
  show V c main_v26 (((cfg0.win 4).blk t).view.emb (ix2 k q)) = _
  refine congrArg (V c main_v26) ?_
  obtain ⟨-, -, -, -, -, -, -, -, e0, e1, -⟩ := index_maps t
  funext ax; apply Fin.ext
  match ax with
  | ⟨0, _⟩ => show win0_4.index t (0 : Fin 2) * 128 + 1 * k.val = k.val; omega
  | ⟨1, _⟩ => show win0_4.index t (1 : Fin 2) * 128 + 1 * q.val = q.val; omega

/-- Entry (p, q) of point t's output block sits at (2000·t + p, q) of the output array. -/
theorem out_pos (t : Fin cfg0.N) (p : Fin 2000) (q : Fin 128) :
    ((cfg0.win 5).blk t).view.emb (ix2 p q) = ix2 (⟨t.val * 2000 + p.val, row_lt t p⟩ : Fin 100000) q := by
  obtain ⟨-, -, -, -, -, -, -, -, -, -, e0, e1⟩ := index_maps t
  funext ax; apply Fin.ext
  match ax with
  | ⟨0, _⟩ => show win0_5.index t (0 : Fin 2) * 2000 + 1 * p.val = t.val * 2000 + p.val; omega
  | ⟨1, _⟩ => show win0_5.index t (1 : Fin 2) * 128 + 1 * q.val = q.val; omega

/-- What point t writes back is rows 2000·t … 2000·t + 1999 of the layer's output array. -/
theorem flushed_eq (c : Dev nD) (t : Fin cfg0.N) :
    (dat0 V c).flushed 5 t = ((cfg0.win 5).blk t).view.read (Elt Ideal)
      (layer (V c main_v24) (V c main_arg0) (V c main_v25) (V c main_v27) (V c main_v26)) := by
  show (cfg0.win 5).cut (grid0.coords t) ((dat0 V c).after 5 t) = _
  rw [after0_5]
  unfold out0_5
  rw [View.canon_unit_zero origin]
  simp only [View.ld_unit_zero (S := S2000x128) origin, View.ld_unit_zero (S := S128x128) origin, View.ld_unit_zero (S := S1x128) origin]
  funext j
  obtain ⟨p, q, rfl⟩ : ∃ (p : Fin 2000) (q : Fin 128), j = ix2 p q := ⟨j 0, j 1, eq_ix2 j⟩
  refine (pay0_apply (iblk0 V c 0 t) (iblk0 V c 1 t) (iblk0 V c 2 t) (iblk0 V c 4 t) (iblk0 V c 3 t) p q).trans ?_
  show _ = layer (V c main_v24) (V c main_arg0) (V c main_v25) (V c main_v27) (V c main_v26) (((cfg0.win 5).blk t).view.emb (ix2 p q))
  rw [out_pos t p q, layer_apply]
  unfold entry
  simp only [blk_a V c t p, blk_h V c t p, blk_wl V c t, blk_b V c t, blk_wr V c t]

/-- An index of the output array is in point t's block iff each coordinate is in the block's range on its axis. -/
theorem mem_blk (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v28).slice (win0_5.rect t)).set ↔ _
  rw [View.set_slice_whole, Rect.mem_set_unit]
  exact Iff.rfl

/-- Row P of the output array is in the block of point P / 2000, which is written back. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 2000 < cfg0.N := lt_of_lt_of_eq (by omega : (i 0).val / 2000 < 50) N_0.symm
  refine ⟨⟨(i 0).val / 2000, hN⟩, flush0_5 _, ?_⟩
  rw [mem_blk]
  obtain ⟨-, -, -, -, -, -, -, -, -, -, e0, e1⟩ := index_maps ⟨(i 0).val / 2000, hN⟩
  have e0' : win0_5.index ⟨(i 0).val / 2000, hN⟩ (0 : Fin 2) = (i 0).val / 2000 := e0
  intro ax
  match ax with
  | ⟨0, _⟩ =>
    show win0_5.index ⟨(i 0).val / 2000, hN⟩ (0 : Fin 2) * 2000 ≤ (i 0).val
      ∧ (i 0).val < win0_5.index ⟨(i 0).val / 2000, hN⟩ (0 : Fin 2) * 2000 + 2000
    omega
  | ⟨1, _⟩ =>
    show win0_5.index ⟨(i 0).val / 2000, hN⟩ (1 : Fin 2) * 128 ≤ (i 1).val
      ∧ (i 1).val < win0_5.index ⟨(i 0).val / 2000, hN⟩ (1 : Fin 2) * 128 + 128
    omega

/-- The output array after the region's run is the layer's output of the arrays the region was entered with. -/
theorem final (c : Dev nD) :
    (dat0 V c).arrAt 5 cfg0.N = layer (V c main_v24) (V c main_arg0) (V c main_v25) (V c main_v27) (V c main_v26) :=
  (dat0 V c).arrAt_eq_of_cover 5 _ (fun t _ => flushed_eq V c t) cover

end Cert.KernelIdeal.Region0

end
-- ==== Proof.Region1.lean ====
/-
  Region 1's output array after its run, as one function of the arrays the region finds.

  The grid has 50 points; point t reads rows 2000·t … 2000·t + 1999 of the aggregated features and of the node
  features, and the two weight matrices and the bias row whole, and writes back rows 2000·t … 2000·t + 1999 of the
  output. The body's entry (p, c) depends on row p of its two input blocks only, so what point t writes back is rows
  2000·t … of ONE whole-array function: row P of the output is the normalised affine row of row P of the two inputs. The 50 blocks tile the 100000 rows, so the array ends holding that function.
  Stated for any contents `V` the region is entered with.
-/
import proofs.«154580_j28802050687442_1_alg».proof.Proof.Gen.KernelIdeal.Frame
import proofs.«154580_j28802050687442_1_alg».proof.Proof.KernelRows

set_option maxRecDepth 16384

noncomputable section

namespace Cert.KernelIdeal.Region1

open Cert.KernelIdeal Cert.KernelIdeal.Gen Cert.KernelIdeal.Rows Cert.LibSageRow
open Idealize.ShloMosaic Idealize.ShloMosaic.TcCoe Idealize.ShloMosaic.ValueIdx Idealize.SL.Sem
open Idealize.ShloMosaic.Pipeline (Dat Cfg Window)

/-- Entry (P, c) of the layer's output: the normalised affine row of row P of the aggregated features `a` and of the
    node features `h`. -/
def entry (a h : S100000x128.Idx → EReal) (wl : S128x64.Idx → EReal) (b : S1x64.Idx → EReal) (wr : S128x64.Idx → EReal)
    (P : Fin 100000) (c : Fin 64) : EReal :=
  unit (affine (fun k : Fin 128 => a (ix2 P k)) (fun k : Fin 128 => h (ix2 P k)) (fun (k : Fin 128) (c : Fin 64) => wl (ix2 k c))
    (fun (k : Fin 128) (c : Fin 64) => wr (ix2 k c)) (fun c : Fin 64 => b (ix2 (0 : Fin 1) c))) (Ideal.ofBits .f32 0x2B8CBCCC#32) c

/-- The layer's output array. -/
def layer (a h : S100000x128.Idx → EReal) (wl : S128x64.Idx → EReal) (b : S1x64.Idx → EReal) (wr : S128x64.Idx → EReal) :
    S100000x64.Idx → EReal :=
  fun i => entry a h wl b wr ⟨(i 0).val, idx2_lt0 i⟩ ⟨(i 1).val, idx2_lt1 i⟩

theorem layer_apply (a h : S100000x128.Idx → EReal) (wl : S128x64.Idx → EReal) (b : S1x64.Idx → EReal) (wr : S128x64.Idx → EReal)
    (P : Fin 100000) (c : Fin 64) : layer a h wl b wr (ix2 P c) = entry a h wl b wr P c := rfl

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row-blocked windows are at block row t, everything else at block 0. -/
theorem index_maps : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem row_lt (t : Fin cfg1.N) (p : Fin 2000) : t.val * 2000 + p.val < 100000 := by
  have ht : t.val < 50 := lt_of_lt_of_eq t.isLt N_1
  have hp := p.isLt
  omega

/-- Row p of point t's block of the aggregated features is row 2000·t + p of the array. -/
theorem blk_a (c : Dev nD) (t : Fin cfg1.N) (p : Fin 2000) (k : Fin 128) :
    iblk1 V c 0 t (ix2 p k) = V c main_v41 (ix2 (⟨t.val * 2000 + p.val, row_lt t p⟩ : Fin 100000) k) := by
  show V c main_v41 (((cfg1.win 0).blk t).view.emb (ix2 p k)) = _
  refine congrArg (V c main_v41) ?_
  obtain ⟨e0, e1, -⟩ := index_maps t
  funext ax; apply Fin.ext
  match ax with
  | ⟨0, _⟩ => show win1_0.index t (0 : Fin 2) * 2000 + 1 * p.val = t.val * 2000 + p.val; omega
  | ⟨1, _⟩ => show win1_0.index t (1 : Fin 2) * 128 + 1 * k.val = k.val; omega

/-- Row p of point t's block of the node features is row 2000·t + p of the array. -/
theorem blk_h (c : Dev nD) (t : Fin cfg1.N) (p : Fin 2000) (k : Fin 128) :
    iblk1 V c 1 t (ix2 p k) = V c main_v28 (ix2 (⟨t.val * 2000 + p.val, row_lt t p⟩ : Fin 100000) k) := by
  show V c main_v28 (((cfg1.win 1).blk t).view.emb (ix2 p k)) = _
  refine congrArg (V c main_v28) ?_
  obtain ⟨-, -, e0, e1, -⟩ := index_maps t
  funext ax; apply Fin.ext
  match ax with
  | ⟨0, _⟩ => show win1_1.index t (0 : Fin 2) * 2000 + 1 * p.val = t.val * 2000 + p.val; omega
  | ⟨1, _⟩ => show win1_1.index t (1 : Fin 2) * 128 + 1 * k.val = k.val; omega

/-- The left weights' block at any point is the whole matrix. -/
theorem blk_wl (c : Dev nD) (t : Fin cfg1.N) (k : Fin 128) (q : Fin 64) :
    iblk1 V c 2 t (ix2 k q) = V c main_v42 (ix2 k q) := by
  show V c main_v42 (((cfg1.win 2).blk t).view.emb (ix2 k q)) = _
  refine congrArg (V c main_v42) ?_
  obtain ⟨-, -, -, -, e0, e1, -⟩ := index_maps t
  funext ax; apply Fin.ext
  match ax with
  | ⟨0, _⟩ => show win1_2.index t (0 : Fin 2) * 128 + 1 * k.val = k.val; omega
  | ⟨1, _⟩ => show win1_2.index t (1 : Fin 2) * 64 + 1 * q.val = q.val; omega

/-- The bias row's block at any point is the whole row. -/
theorem blk_b (c : Dev nD) (t : Fin cfg1.N) (q : Fin 64) :
    iblk1 V c 3 t (ix2 (0 : Fin 1) q) = V c main_v44 (ix2 (0 : Fin 1) q) := by
  show V c main_v44 (((cfg1.win 3).blk t).view.emb (ix2 (0 : Fin 1) q)) = _
  refine congrArg (V c main_v44) ?_
  obtain ⟨-, -, -, -, -, -, e0, e1, -⟩ := index_maps t
  funext ax; apply Fin.ext
  match ax with
  | ⟨0, _⟩ => show win1_3.index t (0 : Fin 2) * 1 + 1 * 0 = 0; omega
  | ⟨1, _⟩ => show win1_3.index t (1 : Fin 2) * 64 + 1 * q.val = q.val; omega

/-- The right weights' block at any point is the whole matrix. -/
theorem blk_wr (c : Dev nD) (t : Fin cfg1.N) (k : Fin 128) (q : Fin 64) :
    iblk1 V c 4 t (ix2 k q) = V c main_v43 (ix2 k q) := by
  show V c main_v43 (((cfg1.win 4).blk t).view.emb (ix2 k q)) = _
  refine congrArg (V c main_v43) ?_
  obtain ⟨-, -, -, -, -, -, -, -, e0, e1, -⟩ := index_maps t
  funext ax; apply Fin.ext
  match ax with
  | ⟨0, _⟩ => show win1_4.index t (0 : Fin 2) * 128 + 1 * k.val = k.val; omega
  | ⟨1, _⟩ => show win1_4.index t (1 : Fin 2) * 64 + 1 * q.val = q.val; omega

/-- Entry (p, q) of point t's output block sits at (2000·t + p, q) of the output array. -/
theorem out_pos (t : Fin cfg1.N) (p : Fin 2000) (q : Fin 64) :
    ((cfg1.win 5).blk t).view.emb (ix2 p q) = ix2 (⟨t.val * 2000 + p.val, row_lt t p⟩ : Fin 100000) q := by
  obtain ⟨-, -, -, -, -, -, -, -, -, -, e0, e1⟩ := index_maps t
  funext ax; apply Fin.ext
  match ax with
  | ⟨0, _⟩ => show win1_5.index t (0 : Fin 2) * 2000 + 1 * p.val = t.val * 2000 + p.val; omega
  | ⟨1, _⟩ => show win1_5.index t (1 : Fin 2) * 64 + 1 * q.val = q.val; omega

/-- What point t writes back is rows 2000·t … 2000·t + 1999 of the layer's output array. -/
theorem flushed_eq (c : Dev nD) (t : Fin cfg1.N) :
    (dat1 V c).flushed 5 t = ((cfg1.win 5).blk t).view.read (Elt Ideal)
      (layer (V c main_v41) (V c main_v28) (V c main_v42) (V c main_v44) (V c main_v43)) := by
  show (cfg1.win 5).cut (grid1.coords t) ((dat1 V c).after 5 t) = _
  rw [after1_5]
  unfold out1_5
  rw [View.canon_unit_zero origin]
  simp only [View.ld_unit_zero (S := S2000x128) origin, View.ld_unit_zero (S := S128x64) origin, View.ld_unit_zero (S := S1x64) origin]
  funext j
  obtain ⟨p, q, rfl⟩ : ∃ (p : Fin 2000) (q : Fin 64), j = ix2 p q := ⟨j 0, j 1, eq_ix2 j⟩
  refine (pay1_apply (iblk1 V c 0 t) (iblk1 V c 1 t) (iblk1 V c 2 t) (iblk1 V c 4 t) (iblk1 V c 3 t) p q).trans ?_
  show _ = layer (V c main_v41) (V c main_v28) (V c main_v42) (V c main_v44) (V c main_v43) (((cfg1.win 5).blk t).view.emb (ix2 p q))
  rw [out_pos t p q, layer_apply]
  unfold entry
  simp only [blk_a V c t p, blk_h V c t p, blk_wl V c t, blk_b V c t, blk_wr V c t]

/-- An index of the output array is in point t's block iff each coordinate is in the block's range on its axis. -/
theorem mem_blk (t : Fin cfg1.N) (i : S100000x64.Idx) :
    i ∈ ((cfg1.win 5).blk t).view.set ↔ ∀ a : Fin 2, win1_5.index t a * S2000x64.size a ≤ (i a).val
      ∧ (i a).val < win1_5.index t a * S2000x64.size a + S2000x64.size a := by
  show i ∈ ((View.whole main_v45).slice (win1_5.rect t)).set ↔ _
  rw [View.set_slice_whole, Rect.mem_set_unit]
  exact Iff.rfl

/-- Row P of the output array is in the block of point P / 2000, which is written back. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : (i 0).val / 2000 < cfg1.N := lt_of_lt_of_eq (by omega : (i 0).val / 2000 < 50) N_1.symm
  refine ⟨⟨(i 0).val / 2000, hN⟩, flush1_5 _, ?_⟩
  rw [mem_blk]
  obtain ⟨-, -, -, -, -, -, -, -, -, -, e0, e1⟩ := index_maps ⟨(i 0).val / 2000, hN⟩
  have e0' : win1_5.index ⟨(i 0).val / 2000, hN⟩ (0 : Fin 2) = (i 0).val / 2000 := e0
  intro ax
  match ax with
  | ⟨0, _⟩ =>
    show win1_5.index ⟨(i 0).val / 2000, hN⟩ (0 : Fin 2) * 2000 ≤ (i 0).val
      ∧ (i 0).val < win1_5.index ⟨(i 0).val / 2000, hN⟩ (0 : Fin 2) * 2000 + 2000
    omega
  | ⟨1, _⟩ =>
    show win1_5.index ⟨(i 0).val / 2000, hN⟩ (1 : Fin 2) * 64 ≤ (i 1).val
      ∧ (i 1).val < win1_5.index ⟨(i 0).val / 2000, hN⟩ (1 : Fin 2) * 64 + 64
    omega

/-- The output array after the region's run is the layer's output of the arrays the region was entered with. -/
theorem final (c : Dev nD) :
    (dat1 V c).arrAt 5 cfg1.N = layer (V c main_v41) (V c main_v28) (V c main_v42) (V c main_v44) (V c main_v43) :=
  (dat1 V c).arrAt_eq_of_cover 5 _ (fun t _ => flushed_eq V c t) cover

end Cert.KernelIdeal.Region1

end
-- ==== Proof.RefLayers.lean ====
/-
  The reference's two layers at an entry, over the extended reals.

  The reference computes each layer on whole arrays: the mean-aggregated features times the transposed left weights,
  plus the bias broadcast over the rows, plus the node features times the transposed right weights; the row sums of
  squares, their roots clamped below, and the quotient; after the first layer a clamp below by zero. Read at entry
  (P, c), every operation depends on row P of its operands only, and the value is the normalised affine row of
  `LibSageRow` at c — of the mean-aggregated features and the layer's input features, whatever those arrays are.
-/
import proofs.«154580_j28802050687442_1_alg».proof.Proof.Gen.ReferenceIdeal.Read
import proofs.«154580_j28802050687442_1_alg».proof.Proof.LibSageRow

set_option maxRecDepth 16384

noncomputable section

namespace Cert.ReferenceIdeal.Layers

open Cert.ReferenceIdeal Cert.ReferenceIdeal.Read Cert.LibSageRow
open Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S64x128, .f32⟩ : BufTy).Contents (Elt Ideal))
  (x6 : (⟨S64, .f32⟩ : BufTy).Contents (Elt Ideal)) (x7 : (⟨S64x128, .f32⟩ : BufTy).Contents (Elt Ideal))

/-- A sum seeded with the zero word is the sum. -/
theorem zero_seed (s : EReal) : FloatOps.ofBits (F := Ideal) .f32 0x00000000#32 + s = s := by
  show Ideal.ofBits .f32 0x00000000#32 + s = s
  rw [Ideal.ofBits_zero_f32, zero_add]

/-! ## Where each operation of the first layer reads its operands, at entry (P, c) -/

theorem l24 (P : Fin 100000) (c k : Fin 128) : lidx_main_v24 (ix2 P c) k = ix2 P k :=
  funext fun a => Fin.ext (by match a with | ⟨0, _⟩ => rfl | ⟨1, _⟩ => rfl)
theorem r24 (P : Fin 100000) (c k : Fin 128) : ridx_main_v24 (ix2 P c) k = ix2 k c :=
  funext fun a => Fin.ext (by match a with | ⟨0, _⟩ => rfl | ⟨1, _⟩ => rfl)
theorem l29 (P : Fin 100000) (c k : Fin 128) : lidx_main_v29 (ix2 P c) k = ix2 P k :=
  funext fun a => Fin.ext (by match a with | ⟨0, _⟩ => rfl | ⟨1, _⟩ => rfl)
theorem r29 (P : Fin 100000) (c k : Fin 128) : ridx_main_v29 (ix2 P c) k = ix2 k c :=
  funext fun a => Fin.ext (by match a with | ⟨0, _⟩ => rfl | ⟨1, _⟩ => rfl)
theorem i26 (P : Fin 100000) (c : Fin 128) : idx_main_v26 (ix2 P c) = ix2 (0 : Fin 1) c :=
  funext fun a => Fin.ext (by match a with | ⟨0, _⟩ => rfl | ⟨1, _⟩ => rfl)
theorem i34 (P : Fin 100000) (c : Fin 128) : idx_main_v34 (ix2 P c) = ix2 P (0 : Fin 1) :=
  funext fun a => Fin.ext (by match a with | ⟨0, _⟩ => rfl | ⟨1, _⟩ => rfl)
theorem ic2 (P : Fin 100000) (u : Fin 1) : idx_main_call0_v2 (ix2 P u) = ix1 P :=
  funext fun a => Fin.ext (by match a with | ⟨0, _⟩ => rfl)
theorem ic1 (P : Fin 100000) (k : Fin 128) : idx_main_call0_v1 (ix1 P) k = ix2 P k :=
  funext fun a => Fin.ext (by match a with | ⟨0, _⟩ => rfl | ⟨1, _⟩ => rfl)

/-- The first layer before normalisation, at entry (P, c): the affine row of the mean-aggregated features and the
    node features. -/
theorem pre1_apply (P : Fin 100000) (c : Fin 128) :
    val_main_v30 (F := Ideal) x0 x1 x2 x3 x4 (ix2 P c)
      = affine (fun k : Fin 128 => val_main_v22 (F := Ideal) x0 x1 (ix2 P k)) (fun k : Fin 128 => x0 (ix2 P k))
          (fun (k c : Fin 128) => val_main_v23 (F := Ideal) x2 (ix2 k c)) (fun (k c : Fin 128) => val_main_v28 (F := Ideal) x4 (ix2 k c))
          (fun c : Fin 128 => val_main_v25 (F := Ideal) x3 (ix2 (0 : Fin 1) c)) c := by
  rw [val_main_v30_apply, val_main_v27_apply, val_main_v24_apply, val_main_v26_apply, val_main_v29_apply, i26]
  unfold affine
  refine congrArg₂ (· + ·) (congrArg₂ (· + ·) (Finset.sum_congr rfl fun k _ => ?_) rfl) (Finset.sum_congr rfl fun k _ => ?_)
  · rw [l24, r24]
  · rw [l29, r29]

/-- The first layer's output at entry (P, c). -/
theorem layer1_apply (P : Fin 100000) (c : Fin 128) :
    val_main_v36 (F := Ideal) x0 x1 x2 x3 x4 (ix2 P c)
      = max (unit (affine (fun k : Fin 128 => val_main_v22 (F := Ideal) x0 x1 (ix2 P k)) (fun k : Fin 128 => x0 (ix2 P k))
          (fun (k c : Fin 128) => val_main_v23 (F := Ideal) x2 (ix2 k c)) (fun (k c : Fin 128) => val_main_v28 (F := Ideal) x4 (ix2 k c))
          (fun c : Fin 128 => val_main_v25 (F := Ideal) x3 (ix2 (0 : Fin 1) c))) (Ideal.ofBits .f32 0x2B8CBCCC#32) c)
          (Ideal.ofBits .f32 0x00000000#32) := by
  rw [val_main_v36_apply, val_main_v35_apply, val_main_v34_apply, val_main_v33_apply, val_main_v32_apply, val_main_cst_4_apply,
    val_main_v31_apply, val_main_call0_v2_apply, val_main_call0_v1_apply, val_main_call0_cst_apply,
    val_main_call1_v0_apply, val_main_call1_cst_apply, i34, ic2]
  have hs : ∑ k : Fin 128, val_main_call0_v0 (F := Ideal) x0 x1 x2 x3 x4 (idx_main_call0_v1 (ix1 P) k)
      = ∑ k : Fin 128, val_main_v30 (F := Ideal) x0 x1 x2 x3 x4 (ix2 P k) * val_main_v30 (F := Ideal) x0 x1 x2 x3 x4 (ix2 P k) :=
    Finset.sum_congr rfl fun k _ => by rw [ic1, val_main_call0_v0_apply]; simp only [Ideal.mulf_def]
  rw [hs, zero_seed]
  simp only [pre1_apply, Ideal.maximumf_def, Ideal.hostDivf_def, Ideal.hostUnary_sqrt_def, Ideal.ofBits_def]
  unfold unit
  rfl

/-! ## The second layer: the same operations on 64 output columns, without the clamp by zero -/

theorem l57 (P : Fin 100000) (c : Fin 64) (k : Fin 128) : lidx_main_v57 (ix2 P c) k = ix2 P k :=
  funext fun a => Fin.ext (by match a with | ⟨0, _⟩ => rfl | ⟨1, _⟩ => rfl)
theorem r57 (P : Fin 100000) (c : Fin 64) (k : Fin 128) : ridx_main_v57 (ix2 P c) k = ix2 k c :=
  funext fun a => Fin.ext (by match a with | ⟨0, _⟩ => rfl | ⟨1, _⟩ => rfl)
theorem l62 (P : Fin 100000) (c : Fin 64) (k : Fin 128) : lidx_main_v62 (ix2 P c) k = ix2 P k :=
  funext fun a => Fin.ext (by match a with | ⟨0, _⟩ => rfl | ⟨1, _⟩ => rfl)
theorem r62 (P : Fin 100000) (c : Fin 64) (k : Fin 128) : ridx_main_v62 (ix2 P c) k = ix2 k c :=
  funext fun a => Fin.ext (by match a with | ⟨0, _⟩ => rfl | ⟨1, _⟩ => rfl)
theorem i59 (P : Fin 100000) (c : Fin 64) : idx_main_v59 (ix2 P c) = ix2 (0 : Fin 1) c :=
  funext fun a => Fin.ext (by match a with | ⟨0, _⟩ => rfl | ⟨1, _⟩ => rfl)
theorem i67 (P : Fin 100000) (c : Fin 64) : idx_main_v67 (ix2 P c) = ix2 P (0 : Fin 1) :=
  funext fun a => Fin.ext (by match a with | ⟨0, _⟩ => rfl | ⟨1, _⟩ => rfl)
theorem jc2 (P : Fin 100000) (u : Fin 1) : idx_main_call2_v2 (ix2 P u) = ix1 P :=
  funext fun a => Fin.ext (by match a with | ⟨0, _⟩ => rfl)
theorem jc1 (P : Fin 100000) (k : Fin 64) : idx_main_call2_v1 (ix1 P) k = ix2 P k :=
  funext fun a => Fin.ext (by match a with | ⟨0, _⟩ => rfl | ⟨1, _⟩ => rfl)

/-- The second layer before normalisation, at entry (P, c): the affine row of the mean-aggregated first-layer
    output and the first-layer output itself. -/
theorem pre2_apply (P : Fin 100000) (c : Fin 64) :
    val_main_v63 (F := Ideal) x0 x1 x2 x3 x4 x5 x6 x7 (ix2 P c)
      = affine (fun k : Fin 128 => val_main_v55 (F := Ideal) x0 x1 x2 x3 x4 (ix2 P k))
          (fun k : Fin 128 => val_main_v36 (F := Ideal) x0 x1 x2 x3 x4 (ix2 P k))
          (fun (k : Fin 128) (c : Fin 64) => val_main_v56 (F := Ideal) x5 (ix2 k c))
          (fun (k : Fin 128) (c : Fin 64) => val_main_v61 (F := Ideal) x7 (ix2 k c))
          (fun c : Fin 64 => val_main_v58 (F := Ideal) x6 (ix2 (0 : Fin 1) c)) c := by
  rw [val_main_v63_apply, val_main_v60_apply, val_main_v57_apply, val_main_v59_apply, val_main_v62_apply, i59]
  unfold affine
  refine congrArg₂ (· + ·) (congrArg₂ (· + ·) (Finset.sum_congr rfl fun k _ => ?_) rfl) (Finset.sum_congr rfl fun k _ => ?_)
  · rw [l57, r57]
  · rw [l62, r62]

/-- The reference's result at entry (P, c). -/
theorem layer2_apply (P : Fin 100000) (c : Fin 64) :
    val_main_v68 (F := Ideal) x0 x1 x2 x3 x4 x5 x6 x7 (ix2 P c)
      = unit (affine (fun k : Fin 128 => val_main_v55 (F := Ideal) x0 x1 x2 x3 x4 (ix2 P k))
          (fun k : Fin 128 => val_main_v36 (F := Ideal) x0 x1 x2 x3 x4 (ix2 P k))
          (fun (k : Fin 128) (c : Fin 64) => val_main_v56 (F := Ideal) x5 (ix2 k c))
          (fun (k : Fin 128) (c : Fin 64) => val_main_v61 (F := Ideal) x7 (ix2 k c))
          (fun c : Fin 64 => val_main_v58 (F := Ideal) x6 (ix2 (0 : Fin 1) c))) (Ideal.ofBits .f32 0x2B8CBCCC#32) c := by
  rw [val_main_v68_apply, val_main_v67_apply, val_main_v66_apply, val_main_v65_apply, val_main_cst_11_apply,
    val_main_v64_apply, val_main_call2_v2_apply, val_main_call2_v1_apply, val_main_call2_cst_apply, i67, jc2]
  have hs : ∑ k : Fin 64, val_main_call2_v0 (F := Ideal) x0 x1 x2 x3 x4 x5 x6 x7 (idx_main_call2_v1 (ix1 P) k)
      = ∑ k : Fin 64, val_main_v63 (F := Ideal) x0 x1 x2 x3 x4 x5 x6 x7 (ix2 P k) * val_main_v63 (F := Ideal) x0 x1 x2 x3 x4 x5 x6 x7 (ix2 P k) :=
    Finset.sum_congr rfl fun k _ => by rw [jc1, val_main_call2_v0_apply]; simp only [Ideal.mulf_def]
  rw [hs, zero_seed]
  simp only [pre2_apply, Ideal.maximumf_def, Ideal.hostDivf_def, Ideal.hostUnary_sqrt_def, Ideal.ofBits_def]
  unfold unit
  rfl

end Cert.ReferenceIdeal.Layers

end
-- ==== Proof.Bridge.lean ====
/-
  The kernel's result array and the reference's result array are one array.

  Both programs aggregate neighbour features by the same gather and scatter-add, count incoming edges by the same
  scatter-add of ones, and clamp the counts below by one. The kernel multiplies the aggregated sums by the reciprocal
  of the clamped count, the reference divides by the clamped count: over the extended reals the quotient is the product
  with the inverse whenever the divisor is not zero, and a count clamped below by one never is. The kernel adds the bias
  last, the reference before the second product: addition is commutative and associative. The kernel reshapes the bias
  vector to a row where the reference broadcasts it to a row: the same row. Each layer's output is then the same
  function of the same arrays, row by row, and the second layer is fed the first layer's output on both sides.
-/
import proofs.«154580_j28802050687442_1_alg».proof.Proof.KernelRun
import proofs.«154580_j28802050687442_1_alg».proof.Proof.Region0
import proofs.«154580_j28802050687442_1_alg».proof.Proof.Region1
import proofs.«154580_j28802050687442_1_alg».proof.Proof.RefLayers
import Idealize.ShloMosaic.Lib.StableHlo.Run
import Idealize.ShloMosaic.Lib.IdealHost
import Idealize.ShloMosaic.Lib.ValueLayout

set_option maxRecDepth 16384

noncomputable section

namespace Cert.Bridge

open Cert.KernelIdeal Cert.KernelIdeal.Gen Cert.LibSageRow
open Idealize.ShloMosaic Idealize.ShloMosaic.TcCoe Idealize.ShloMosaic.ValueIdx Idealize.SL.Sem Idealize.ShloMosaic.StableHlo
open Cert.ReferenceIdeal.Read (val_main_v1 val_main_v3 val_main_v13 val_main_v17 val_main_v18 val_main_v19 val_main_v22 val_main_v23
  val_main_v25 val_main_v28 val_main_v36 val_main_v42 val_main_v44 val_main_v45 val_main_v46 val_main_v43 val_main_v55 val_main_v56
  val_main_v58 val_main_v61 val_main_v68 val_main_cst_3)

/-! ## The mean of the neighbours, two ways -/

/-- A vector of per-node values laid along the 128 feature columns: entry (P, k) is the vector at P. -/
def alongRows (y : S100000.Idx → EReal) : S100000x128.Idx → EReal :=
  broadcastInDim S100000x128 ![0, 1] bcast_S100000x1_S100000x128_0_1 (broadcastInDim S100000x1 ![0] bcast_S100000_S100000x1_0 y)

theorem alongRows_apply (y : S100000.Idx → EReal) (P : Fin 100000) (k : Fin 128) : alongRows y (ix2 P k) = y (ix1 P) :=
  (broadcastInDim_apply _ bcast_S100000x1_S100000x128_0_1 _ (ix2 P k) (ix2 P (0 : Fin 1)) (fun a => match a with
    | ⟨0, _⟩ => by show P.val = if (100000 : Nat) = 1 then 0 else P.val; rw [if_neg (by decide)]
    | ⟨1, _⟩ => by show 0 = if (1 : Nat) = 1 then 0 else k.val; rw [if_pos rfl])).trans
  (broadcastInDim_apply _ bcast_S100000_S100000x1_0 y (ix2 P (0 : Fin 1)) (ix1 P) (fun a => match a with
    | ⟨0, _⟩ => by show P.val = if (100000 : Nat) = 1 then 0 else P.val; rw [if_neg (by decide)]))

/-- The kernel's mean: the sums times the reciprocal of the clamped count. -/
def meanMul (S : S100000x128.Idx → EReal) (n : S100000.Idx → EReal) : S100000x128.Idx → EReal :=
  mulf (F := Ideal) (φ := .f32) S (alongRows (Host.divf (F := Ideal) (φ := .f32) (val_main_v18 (F := Ideal)) n))

/-- The reference's mean: the sums divided by the clamped count. -/
def meanDiv (S : S100000x128.Idx → EReal) (n : S100000.Idx → EReal) : S100000x128.Idx → EReal :=
  Host.divf (F := Ideal) (φ := .f32) S (alongRows n)

theorem meanMul_apply (S : S100000x128.Idx → EReal) (n : S100000.Idx → EReal) (i : S100000x128.Idx) :
    meanMul S n i = S i * alongRows (Host.divf (F := Ideal) (φ := .f32) (val_main_v18 (F := Ideal)) n) i := rfl

theorem meanDiv_apply (S : S100000x128.Idx → EReal) (n : S100000.Idx → EReal) (i : S100000x128.Idx) :
    meanDiv S n i = Ideal.div (S i) (alongRows n i) := rfl

theorem ones_apply (i : Cert.ReferenceIdeal.S100000.Idx) : val_main_v18 (F := Ideal) i = 1 := by
  rw [Cert.ReferenceIdeal.Read.val_main_v18_apply, Cert.ReferenceIdeal.Read.val_main_cst_3_apply]
  exact Ideal.ofBits_one_f32

/-- A count clamped below by one is not zero, so multiplying by its reciprocal is dividing by it. -/
theorem mean_eq (S : S100000x128.Idx → EReal) (x1 : (⟨Cert.ReferenceIdeal.S2x1600000, .i32⟩ : BufTy).Contents (Elt Ideal)) :
    meanMul S (val_main_v19 (F := Ideal) x1) = meanDiv S (val_main_v19 (F := Ideal) x1) := by
  funext i
  obtain ⟨P, k, rfl⟩ : ∃ (P : Fin 100000) (k : Fin 128), i = ix2 P k := ⟨i 0, i 1, eq_ix2 i⟩
  rw [meanMul_apply, meanDiv_apply, alongRows_apply, alongRows_apply, hostDivf_apply, ones_apply]
  refine mul_one_div ?_
  rw [Cert.ReferenceIdeal.Read.val_main_v19_apply, ones_apply, Ideal.maximumf_def]
  exact max_one_ne_zero _

/-! ## The bias as a row, two ways -/

theorem bias_row1 (x3 : S128.Idx → EReal) :
    (fun i => shapeCast main_v27.ty.shape x3 shapeCasts_S128_S1x128 i) = val_main_v25 (F := Ideal) x3 := by
  funext i
  obtain ⟨u, q, rfl⟩ : ∃ (u : Fin 1) (q : Fin 128), i = ix2 u q := ⟨i 0, i 1, eq_ix2 i⟩
  rw [Cert.ReferenceIdeal.Read.val_main_v25_apply]
  refine (shapeCast_a_1a_apply x3 shapeCasts_S128_S1x128 u q).trans (congrArg x3 ?_)
  exact funext fun a => Fin.ext (by match a with | ⟨0, _⟩ => rfl)

theorem bias_row2 (x6 : S64.Idx → EReal) :
    (fun i => shapeCast main_v44.ty.shape x6 shapeCasts_S64_S1x64 i) = val_main_v58 (F := Ideal) x6 := by
  funext i
  obtain ⟨u, q, rfl⟩ : ∃ (u : Fin 1) (q : Fin 64), i = ix2 u q := ⟨i 0, i 1, eq_ix2 i⟩
  rw [Cert.ReferenceIdeal.Read.val_main_v58_apply]
  refine (shapeCast_a_1a_apply x6 shapeCasts_S64_S1x64 u q).trans (congrArg x6 ?_)
  exact funext fun a => Fin.ext (by match a with | ⟨0, _⟩ => rfl)

/-! ## The neighbour sums of an array of features -/

/-- The sums over incoming edges of the source nodes' rows of `h`: gather the rows at the sources, scatter-add them
    at the destinations into zeros. Both programs apply these same operations, to the input features and to the first
    layer's output. -/
def neighbourSums (h : FVec Ideal Cert.ReferenceIdeal.S100000x128 .f32)
    (x1 : (⟨Cert.ReferenceIdeal.S2x1600000, .i32⟩ : BufTy).Contents (Elt Ideal)) : FVec Ideal Cert.ReferenceIdeal.S100000x128 .f32 :=
  Host.scatterAdd (F := Ideal) Cert.ReferenceIdeal.scatter_S100000x128_S1600000x1_S1600000x128_1_0_0_1 (val_main_v44 (F := Ideal))
    (val_main_v45 (F := Ideal) x1)
    (Host.gather Cert.ReferenceIdeal.gather_S100000x128_S1600000x1_S1600000x128_1_0_n_n_0_1_1128 h (val_main_v42 (F := Ideal) x1))

/-! ## The reference's layers as the layer functions -/

section Reference

variable (x0 : (⟨Cert.ReferenceIdeal.S100000x128, .f32⟩ : BufTy).Contents (Elt Ideal))
  (x1 : (⟨Cert.ReferenceIdeal.S2x1600000, .i32⟩ : BufTy).Contents (Elt Ideal))
  (x2 : (⟨Cert.ReferenceIdeal.S128x128, .f32⟩ : BufTy).Contents (Elt Ideal)) (x3 : (⟨Cert.ReferenceIdeal.S128, .f32⟩ : BufTy).Contents (Elt Ideal))
  (x4 : (⟨Cert.ReferenceIdeal.S128x128, .f32⟩ : BufTy).Contents (Elt Ideal)) (x5 : (⟨Cert.ReferenceIdeal.S64x128, .f32⟩ : BufTy).Contents (Elt Ideal))
  (x6 : (⟨Cert.ReferenceIdeal.S64, .f32⟩ : BufTy).Contents (Elt Ideal)) (x7 : (⟨Cert.ReferenceIdeal.S64x128, .f32⟩ : BufTy).Contents (Elt Ideal))

theorem ref_mean1 : val_main_v22 (F := Ideal) x0 x1 = meanDiv (val_main_v13 (F := Ideal) x0 x1) (val_main_v19 (F := Ideal) x1) := rfl

theorem ref_sums1 : val_main_v13 (F := Ideal) x0 x1 = neighbourSums x0 x1 := rfl

theorem ref_mean2 : val_main_v55 (F := Ideal) x0 x1 x2 x3 x4
    = meanDiv (neighbourSums (val_main_v36 (F := Ideal) x0 x1 x2 x3 x4) x1) (val_main_v19 (F := Ideal) x1) := rfl

theorem ref_layer1 : val_main_v36 (F := Ideal) x0 x1 x2 x3 x4
    = Region0.layer (val_main_v22 (F := Ideal) x0 x1) x0 (val_main_v23 (F := Ideal) x2) (val_main_v25 (F := Ideal) x3) (val_main_v28 (F := Ideal) x4) := by
  funext i
  obtain ⟨P, q, rfl⟩ : ∃ (P : Fin 100000) (q : Fin 128), i = ix2 P q := ⟨i 0, i 1, eq_ix2 i⟩
  exact Cert.ReferenceIdeal.Layers.layer1_apply x0 x1 x2 x3 x4 P q

theorem ref_layer2 : val_main_v68 (F := Ideal) x0 x1 x2 x3 x4 x5 x6 x7
    = Region1.layer (val_main_v55 (F := Ideal) x0 x1 x2 x3 x4) (val_main_v36 (F := Ideal) x0 x1 x2 x3 x4) (val_main_v56 (F := Ideal) x5)
        (val_main_v58 (F := Ideal) x6) (val_main_v61 (F := Ideal) x7) := by
  funext i
  obtain ⟨P, q, rfl⟩ : ∃ (P : Fin 100000) (q : Fin 64), i = ix2 P q := ⟨i 0, i 1, eq_ix2 i⟩
  exact Cert.ReferenceIdeal.Layers.layer2_apply x0 x1 x2 x3 x4 x5 x6 x7 P q

end Reference

/-! ## The kernel's host stretches: what each region is entered with -/

variable (m : (ℓ : Loc nD τ sig) → Buf (Elt Ideal) ℓ) (ρ : Dev nD → PrngReg)

set_option maxHeartbeats 4000000 in
theorem enter0_mean (c : Dev nD) : V1 m ρ c main_v24
    = meanMul (neighbourSums (m ((c.tc : Thread nD τ).loc main_arg0)) (m ((c.tc : Thread nD τ).loc main_arg1)))
        (val_main_v19 (F := Ideal) (m ((c.tc : Thread nD τ).loc main_arg1))) := by
  dsimp only [V1, W1, hostOps0]
  after_results_simp
  rfl

set_option maxHeartbeats 4000000 in
theorem enter0_x (c : Dev nD) : V1 m ρ c main_arg0 = m ((c.tc : Thread nD τ).loc main_arg0) := by
  dsimp only [V1, W1, hostOps0]
  after_results_simp
  all_goals rfl

set_option maxHeartbeats 4000000 in
theorem enter0_wl (c : Dev nD) : V1 m ρ c main_v25 = val_main_v23 (F := Ideal) (m ((c.tc : Thread nD τ).loc main_arg2)) := by
  dsimp only [V1, W1, hostOps0]
  after_results_simp
  rfl

set_option maxHeartbeats 4000000 in
theorem enter0_wr (c : Dev nD) : V1 m ρ c main_v26 = val_main_v28 (F := Ideal) (m ((c.tc : Thread nD τ).loc main_arg4)) := by
  dsimp only [V1, W1, hostOps0]
  after_results_simp
  rfl

set_option maxHeartbeats 4000000 in
theorem enter0_b (c : Dev nD) : V1 m ρ c main_v27 = val_main_v25 (F := Ideal) (m ((c.tc : Thread nD τ).loc main_arg3)) := by
  dsimp only [V1, W1, hostOps0]
  after_results_simp
  exact bias_row1 _

set_option maxHeartbeats 4000000 in
theorem src_idx (c : Dev nD) : W1 m ρ c (Proc.devRef .tc main_v1) = val_main_v1 (F := Ideal) (m ((c.tc : Thread nD τ).loc main_arg1)) := by
  dsimp only [W1, hostOps0]
  after_results_simp
  rfl

set_option maxHeartbeats 4000000 in
theorem dst_idx (c : Dev nD) : W1 m ρ c (Proc.devRef .tc main_v3) = val_main_v3 (F := Ideal) (m ((c.tc : Thread nD τ).loc main_arg1)) := by
  dsimp only [W1, hostOps0]
  after_results_simp
  rfl

set_option maxHeartbeats 4000000 in
theorem inv_cnt (c : Dev nD) : W1 m ρ c (Proc.devRef .tc main_v11)
    = Host.divf (F := Ideal) (φ := .f32) (val_main_v18 (F := Ideal)) (val_main_v19 (F := Ideal) (m ((c.tc : Thread nD τ).loc main_arg1))) := by
  dsimp only [W1, hostOps0]
  after_results_simp
  rfl

/-- The first layer's output, as the kernel leaves it after region 0. -/
def hidden (c : Dev nD) : S100000x128.Idx → EReal :=
  Region0.layer (V1 m ρ c main_v24) (V1 m ρ c main_arg0) (V1 m ρ c main_v25) (V1 m ρ c main_v27) (V1 m ρ c main_v26)

theorem after0 (c : Dev nD) : W2 m ρ c (Proc.devRef .tc main_v28) = hidden m ρ c :=
  (W2_arr m ρ c 5).trans (Region0.final (V1 m ρ) c)

set_option maxHeartbeats 4000000 in
theorem enter1_h (c : Dev nD) : V3 m ρ c main_v28 = hidden m ρ c := by
  dsimp only [V3, W3, hostOps1]
  after_results_simp
  exact after0 m ρ c

set_option maxHeartbeats 4000000 in
theorem enter1_mean (c : Dev nD) : V3 m ρ c main_v41
    = meanMul (neighbourSums (hidden m ρ c) (m ((c.tc : Thread nD τ).loc main_arg1)))
        (val_main_v19 (F := Ideal) (m ((c.tc : Thread nD τ).loc main_arg1))) := by
  dsimp only [V3, W3, hostOps1]
  after_results_simp
  rw [W2_of_ne m ρ c main_v3 (by decide), W2_of_ne m ρ c main_v1 (by decide), W2_of_ne m ρ c main_v11 (by decide),
    dst_idx, src_idx, inv_cnt, after0]
  rfl

/-- No host operation of the first stretch and no window of region 0 writes an argument: it is entered into the second
    stretch as launched. -/
theorem kept5 (c : Dev nD) : W2 m ρ c (Proc.devRef .tc main_arg5) = m ((c.tc : Thread nD τ).loc main_arg5) := by
  rw [W2_of_ne m ρ c main_arg5 (by decide)]
  dsimp only [W1, hostOps0]
  after_results_simp
  all_goals rfl

theorem kept6 (c : Dev nD) : W2 m ρ c (Proc.devRef .tc main_arg6) = m ((c.tc : Thread nD τ).loc main_arg6) := by
  rw [W2_of_ne m ρ c main_arg6 (by decide)]
  dsimp only [W1, hostOps0]
  after_results_simp
  all_goals rfl

theorem kept7 (c : Dev nD) : W2 m ρ c (Proc.devRef .tc main_arg7) = m ((c.tc : Thread nD τ).loc main_arg7) := by
  rw [W2_of_ne m ρ c main_arg7 (by decide)]
  dsimp only [W1, hostOps0]
  after_results_simp
  all_goals rfl

set_option maxHeartbeats 4000000 in
theorem enter1_wl (c : Dev nD) : V3 m ρ c main_v42 = val_main_v56 (F := Ideal) (m ((c.tc : Thread nD τ).loc main_arg5)) := by
  dsimp only [V3, W3, hostOps1]
  after_results_simp
  rw [kept5]
  rfl

set_option maxHeartbeats 4000000 in
theorem enter1_wr (c : Dev nD) : V3 m ρ c main_v43 = val_main_v61 (F := Ideal) (m ((c.tc : Thread nD τ).loc main_arg7)) := by
  dsimp only [V3, W3, hostOps1]
  after_results_simp
  rw [kept7]
  rfl

set_option maxHeartbeats 4000000 in
theorem enter1_b (c : Dev nD) : V3 m ρ c main_v44 = val_main_v58 (F := Ideal) (m ((c.tc : Thread nD τ).loc main_arg6)) := by
  dsimp only [V3, W3, hostOps1]
  after_results_simp
  rw [kept6]
  exact bias_row2 _

/-! ## The result -/

/-- The first layer's output is the reference's: the two means agree and the two bias rows are one. -/
theorem hidden_eq (c : Dev nD) : hidden m ρ c
    = val_main_v36 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  unfold hidden
  rw [enter0_mean, enter0_x, enter0_wl, enter0_b, enter0_wr, mean_eq, ref_layer1, ref_mean1, ref_sums1]

/-- The kernel's result buffer after its run is the reference's result term of the same arguments. -/
theorem result_eq (c : Dev nD) : W4 m ρ c (Proc.devRef .tc main_v45)
    = val_main_v68 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) := by
  refine ((W4_arr m ρ c 5).trans (Region1.final (V3 m ρ) c)).trans ?_
  rw [enter1_mean, enter1_h, enter1_wl, enter1_b, enter1_wr, mean_eq, hidden_eq, ref_layer2, ref_mean2]

end Cert.Bridge

end
-- ==== Proof.lean ====
/-
  A two-layer graph convolution — mean aggregation over incoming edges, two linear maps and a bias, rows divided by
  their clamped Euclidean length, a clamp by zero between the layers — computed by two pipelined kernel regions, each
  over 50 blocks of 2000 nodes, among host gathers and scatter-adds, against the same network written with whole-array
  operations.

  Over the extended reals the two programs end with the same result array. The gathers, scatter-adds and counts are the
  same operations on both sides. The kernel multiplies the neighbour sums by the reciprocal of the count clamped below
  by one where the reference divides by it (equal, since the clamped count is not zero); it adds the bias after both
  products where the reference adds it between them (addition is commutative and associative); it narrows the matrix
  operands to a shorter float format (the identity here); and it works block by block where the reference works on
  whole arrays (every output row depends on the same row of the inputs only, and the blocks tile the rows). No step
  uses that the inputs are finite. The idealization rewrote no operation, so its conjunct is trivial; each program's
  termination and the preservation of its arguments are the generated frames and the reference's generated run.
-/
import proofs.«154580_j28802050687442_1_alg».proof.Defs
import proofs.«154580_j28802050687442_1_alg».proof.Proof.Gen.Kernel
import proofs.«154580_j28802050687442_1_alg».proof.Proof.Gen.Kernel.Skeleton
import proofs.«154580_j28802050687442_1_alg».proof.Proof.Gen.Kernel.Launch
import proofs.«154580_j28802050687442_1_alg».proof.Proof.Gen.Kernel.Points
import proofs.«154580_j28802050687442_1_alg».proof.Proof.Gen.Kernel.Frame
import proofs.«154580_j28802050687442_1_alg».proof.Proof.Gen.KernelIdeal
import proofs.«154580_j28802050687442_1_alg».proof.Proof.Gen.KernelIdeal.Skeleton
import proofs.«154580_j28802050687442_1_alg».proof.Proof.Gen.KernelIdeal.Launch
import proofs.«154580_j28802050687442_1_alg».proof.Proof.Gen.KernelIdeal.Points
import proofs.«154580_j28802050687442_1_alg».proof.Proof.Gen.KernelIdeal.Frame
import proofs.«154580_j28802050687442_1_alg».proof.Proof.Gen.ReferenceIdeal
import proofs.«154580_j28802050687442_1_alg».proof.Proof.Gen.ReferenceIdeal.Run
import proofs.«154580_j28802050687442_1_alg».proof.Proof.Gen.ReferenceIdeal.Read
import proofs.«154580_j28802050687442_1_alg».proof.Proof.Gen.Pre_finite_inputs
import proofs.«154580_j28802050687442_1_alg».proof.Proof.KernelRun
import proofs.«154580_j28802050687442_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs run to the end, and the kernel's result array — what its
    second region leaves — is the reference's result term of those arguments. -/
theorem algebraic : Cert.algebraic_KernelIdeal_ReferenceIdeal := by
  intro m ρ m' ρ' _ hagree
  refine ⟨fun c => Cert.KernelIdeal.Gen.W4 m ρ c (Proc.devRef .tc Cert.KernelIdeal.main_v45),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v68_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Bridge.result_eq m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
